-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S2x1000000 : Shape := ⟨2, ![2, 1000000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S128x1 .f32) (main_arg6 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1 .f32 := Host.absf main_arg5
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x128 .f32) (main_arg1 : FVec F S50000x128 .f32) (main_arg2 : IVec S2x1000000 32) (main_arg3 : FVec F S256x128 .f32) (main_arg4 : FVec F S128 .f32) (main_arg5 : FVec F S128x1 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S50000x128 : Shape := ⟨2, ![50000, 128]⟩
abbrev S2x1000000 : Shape := ⟨2, ![2, 1000000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1007616 : Shape := ⟨1, ![1007616]⟩
abbrev S1007616x1 : Shape := ⟨2, ![1007616, 1]⟩
abbrev S1007616x128 : Shape := ⟨2, ![1007616, 128]⟩
abbrev S128x128 : Shape := ⟨2, ![128, 128]⟩
abbrev S1x128 : Shape := ⟨2, ![1, 128]⟩
abbrev S1x1007616 : Shape := ⟨2, ![1, 1007616]⟩
abbrev S8192x128 : Shape := ⟨2, ![8192, 128]⟩
abbrev S1x8192 : Shape := ⟨2, ![1, 8192]⟩

abbrev nBuf : Space → Nat
  | .hbm => 49
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S2x1000000, .i32⟩
  | .hbm, ⟨3, _⟩ => ⟨S256x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S_, .i32⟩
  | .hbm, ⟨12, _⟩ => ⟨S_, .i32⟩
  | .hbm, ⟨13, _⟩ => ⟨S1007616, .i32⟩
  | .hbm, ⟨14, _⟩ => ⟨S_, .i32⟩
  | .hbm, ⟨15, _⟩ => ⟨S_, .i32⟩
  | .hbm, ⟨16, _⟩ => ⟨S1007616, .i32⟩
  | .hbm, ⟨17, _⟩ => ⟨S100000x128, .bf16⟩
  | .hbm, ⟨18, _⟩ => ⟨S50000x128, .bf16⟩
  | .hbm, ⟨19, _⟩ => ⟨S_, .i32⟩
  | .hbm, ⟨20, _⟩ => ⟨S1007616, .i32⟩
  | .hbm, ⟨21, _⟩ => ⟨S1007616, .i1⟩
  | .hbm, ⟨22, _⟩ => ⟨S_, .i32⟩
  | .hbm, ⟨23, _⟩ => ⟨S1007616, .i32⟩
  | .hbm, ⟨24, _⟩ => ⟨S1007616, .i32⟩
  | .hbm, ⟨25, _⟩ => ⟨S1007616, .i32⟩
  | .hbm, ⟨26, _⟩ => ⟨S1007616x1, .i32⟩
  | .hbm, ⟨27, _⟩ => ⟨S1007616x128, .bf16⟩
  | .hbm, ⟨28, _⟩ => ⟨S_, .i32⟩
  | .hbm, ⟨29, _⟩ => ⟨S1007616, .i32⟩
  | .hbm, ⟨30, _⟩ => ⟨S1007616, .i1⟩
  | .hbm, ⟨31, _⟩ => ⟨S_, .i32⟩
  | .hbm, ⟨32, _⟩ => ⟨S1007616, .i32⟩
  | .hbm, ⟨33, _⟩ => ⟨S1007616, .i32⟩
  | .hbm, ⟨34, _⟩ => ⟨S1007616, .i32⟩
  | .hbm, ⟨35, _⟩ => ⟨S1007616x1, .i32⟩
  | .hbm, ⟨36, _⟩ => ⟨S1007616x128, .bf16⟩
  | .hbm, ⟨37, _⟩ => ⟨S128x128, .f32⟩
  | .hbm, ⟨38, _⟩ => ⟨S128x128, .bf16⟩
  | .hbm, ⟨39, _⟩ => ⟨S128x128, .f32⟩
  | .hbm, ⟨40, _⟩ => ⟨S128x128, .bf16⟩
  | .hbm, ⟨41, _⟩ => ⟨S1x128, .f32⟩
  | .hbm, ⟨42, _⟩ => ⟨S1x128, .bf16⟩
  | .hbm, ⟨43, _⟩ => ⟨S1x1007616, .f32⟩
  | .hbm, ⟨44, _⟩ => ⟨S1007616, .f32⟩
  | .hbm, ⟨45, _⟩ => ⟨S1000000, .f32⟩
  | .hbm, ⟨46, _⟩ => ⟨S_, .f32⟩
  | .hbm, ⟨47, _⟩ => ⟨S1000000, .f32⟩
  | .hbm, ⟨48, _⟩ => ⟨S1000000, .f32⟩
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S128x128, .bf16⟩
  | .local _ .vmem, ⟨5, _⟩ => ⟨S128x128, .bf16⟩
  | .local _ .vmem, ⟨6, _⟩ => ⟨S128, .f32⟩
  | .local _ .vmem, ⟨7, _⟩ => ⟨S1x128, .bf16⟩
  | .local _ .vmem, ⟨8, _⟩ => ⟨S1x8192, .f32⟩
  | .local _ .vmem, ⟨9, _⟩ => ⟨S1x8192, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  pads_S1000000_S1007616_076160 : S1000000.Pads (![0] : Fin 1 → Nat) ![7616] ![0] S1007616
  h_S_ : 0 < S_.numel
  bitsLt_bf16_f32 : FTy.bits .bf16 < FTy.bits .f32
  bcast_S_S1007616 : S_.BroadcastsInDim S1007616 (![] : Fin 0 → Fin S1007616.rank)
  bcast_S1007616_S1007616x1_0 : S1007616.BroadcastsInDim S1007616x1 (![0] : Fin 1 → Fin S1007616x1.rank)
  slices_S256x128_S128x128_0_0 : S256x128.Slices ![0, 0] S128x128
  slices_S256x128_S128x128_128_0 : S256x128.Slices ![128, 0] S128x128
  transposes_S128x1_S1x128_1_0 : S128x1.Transposes [1, 0] S1x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x8192_S1x8192_0_0 : ∀ a, (![0, 0] : Fin 2 → Nat) a + S1x8192.size a ≤ S1x8192.size a
  h_S1x8192 : 0 < S1x8192.numel
  shapeCasts_S1x1007616_S1007616 : S1x1007616.ShapeCasts S1007616
  slices_S1007616_S1000000_0 : S1007616.Slices ![0] S1000000
  shapeCasts_S1_S_ : S1.ShapeCasts S_
  bcast_S_S1000000 : S_.BroadcastsInDim S1000000 (![] : Fin 0 → Fin S1000000.rank)
  gather_S100000x128_S1007616x1_S1007616x128_1_0_n_n_0_1_1128_wf : GatherDims.WF S100000x128 S1007616x1 S1007616x128 [1] [0] [] [0] [] 1 ![1, 128]
  gather_S50000x128_S1007616x1_S1007616x128_1_0_n_n_0_1_1128_wf : GatherDims.WF S50000x128 S1007616x1 S1007616x128 [1] [0] [] [0] [] 1 ![1, 128]
  dot_S8192x128_S128x128_S8192x128_1_0_0_1_n_n_wf : DotDims.WF S8192x128 S128x128 S8192x128 [1] [0] [0] [1] [] []
  dot_S1x128_S8192x128_S1x8192_1_1_0_0_n_n_wf : DotDims.WF S1x128 S8192x128 S1x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1007616x128.size a
  hwx0_0 : ∀ i : grid0.Coords, EltTy.bits .bf16 = 32 ∨ (Rect.block (s := S1007616x128) S8192x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S1007616x128.size a
  hwx0_1 : ∀ i : grid0.Coords, EltTy.bits .bf16 = 32 ∨ (Rect.block (s := S1007616x128) S8192x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .bf16 = 32 ∨ (Rect.block (s := S1x128) S1x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8192.size a ≤ S1x1007616.size a
  hwx0_6 : ∀ i : grid0.Coords, EltTy.bits .f32 = 32 ∨ (Rect.block (s := S1x1007616) S1x8192.size (cc0_transform_6 i) (hinb0_6 i)).WholeWords (EltTy.packing .f32)

variable [Facts₀]

def gather_S100000x128_S1007616x1_S1007616x128_1_0_n_n_0_1_1128 : GatherDims S100000x128 S1007616x1 S1007616x128 where
  offsetDims := [1]
  collapsedSliceDims := [0]
  operandBatchingDims := []
  startIndicesBatchingDims := []
  startIndexMap := [0]
  indexVectorDim := 1
  sliceSizes := ![1, 128]
  wf := gather_S100000x128_S1007616x1_S1007616x128_1_0_n_n_0_1_1128_wf
def gather_S50000x128_S1007616x1_S1007616x128_1_0_n_n_0_1_1128 : GatherDims S50000x128 S1007616x1 S1007616x128 where
  offsetDims := [1]
  collapsedSliceDims := [0]
  operandBatchingDims := []
  startIndicesBatchingDims := []
  startIndexMap := [0]
  indexVectorDim := 1
  sliceSizes := ![1, 128]
  wf := gather_S50000x128_S1007616x1_S1007616x128_1_0_n_n_0_1_1128_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S1x128_S8192x128_S1x8192_1_1_0_0_n_n : DotDims S1x128 S8192x128 S1x8192 where
  lhsContracting := [1]
  rhsContracting := [1]
  lhsNonContracting := [0]
  rhsNonContracting := [0]
  lhsBatch := []
  rhsBatch := []
  wf := dot_S1x128_S8192x128_S1x8192_1_1_0_0_n_n_wf

abbrev win0_0 : Pipeline.Window sig grid0 :=
  Pipeline.Window.ofSpec (Memref.whole main_v14) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S1x8192.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S2x1000000 : Shape := ⟨2, ![2, 1000000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1000000x256 : Shape := ⟨2, ![1000000, 256]⟩
abbrev S1x128 : Shape := ⟨2, ![1, 128]⟩
abbrev S1x1 : Shape := ⟨2, ![1, 1]⟩

abbrev nBuf : Space → Nat
  | .hbm => 42
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S2x1000000, .i32⟩
  | .hbm, ⟨3, _⟩ => ⟨S256x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1000000x128, .f32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x128, .f32⟩
  | .hbm, ⟨29, _⟩ => ⟨S1000000x256, .f32⟩
  | .hbm, ⟨30, _⟩ => ⟨S1000000x128, .f32⟩
  | .hbm, ⟨31, _⟩ => ⟨S1x128, .f32⟩
  | .hbm, ⟨32, _⟩ => ⟨S1000000x128, .f32⟩
  | .hbm, ⟨33, _⟩ => ⟨S1000000x128, .f32⟩
  | .hbm, ⟨34, _⟩ => ⟨S_, .f32⟩
  | .hbm, ⟨35, _⟩ => ⟨S1000000x128, .f32⟩
  | .hbm, ⟨36, _⟩ => ⟨S1000000x128, .f32⟩
  | .hbm, ⟨37, _⟩ => ⟨S1000000x1, .f32⟩
  | .hbm, ⟨38, _⟩ => ⟨S1x1, .f32⟩
  | .hbm, ⟨39, _⟩ => ⟨S1000000x1, .f32⟩
  | .hbm, ⟨40, _⟩ => ⟨S1000000x1, .f32⟩
  | .hbm, ⟨41, _⟩ => ⟨S1000000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x128_S1000000x128_S1000000x256_d1 : Shape.Concatenates [S1000000x128, S1000000x128] S1000000x256 1
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S1000000x1_S1000000 : S1000000x1.ShapeCasts S1000000
  gather_S100000x128_S1000000x1_S1000000x128_1_0_n_n_0_1_1128_wf : GatherDims.WF S100000x128 S1000000x1 S1000000x128 [1] [0] [] [0] [] 1 ![1, 128]
  gather_S50000x128_S1000000x1_S1000000x128_1_0_n_n_0_1_1128_wf : GatherDims.WF S50000x128 S1000000x1 S1000000x128 [1] [0] [] [0] [] 1 ![1, 128]
  dot_S1000000x256_S256x128_S1000000x128_1_0_0_1_n_n_wf : DotDims.WF S1000000x256 S256x128 S1000000x128 [1] [0] [0] [1] [] []
  dot_S1000000x128_S128x1_S1000000x1_1_0_0_1_n_n_wf : DotDims.WF S1000000x128 S128x1 S1000000x1 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def dot_S1000000x256_S256x128_S1000000x128_1_0_0_1_n_n : DotDims S1000000x256 S256x128 S1000000x128 where
  lhsContracting := [1]
  rhsContracting := [0]
  lhsNonContracting := [0]
  rhsNonContracting := [1]
  lhsBatch := []
  rhsBatch := []
  wf := dot_S1000000x256_S256x128_S1000000x128_1_0_0_1_n_n_wf
def dot_S1000000x128_S128x1_S1000000x1_1_0_0_1_n_n : DotDims S1000000x128 S128x1 S1000000x1 where
  lhsContracting := [1]
  rhsContracting := [0]
  lhsNonContracting := [0]
  rhsNonContracting := [1]
  lhsBatch := []
  rhsBatch := []
  wf := dot_S1000000x128_S128x1_S1000000x1_1_0_0_1_n_n_wf

class Facts : Prop extends Facts₀ where

variable [Facts]
-- ==== Proof.LibGatherRows.lean ====
/-
  `stablehlo.gather` of whole rows of a matrix, read at an index.

  What `x[idx]` of a table `x : [N, C]` at an integer vector `idx : [E]` lowers to, the vector carried as an
  `[E, 1]` array of start indices: offset axes `[1]`, collapsed axes `[0]`, start index map `[0]`, the index vector on
  axis 1, slice sizes `[1, C]`. Result element `(e, k)` is the table's element `(r, k)`, the row `r` being the start
  word `idx[e, 0]` read as a signed integer and clamped into `[0, N - 1]`: a negative word reads row 0, a word past
  the table its last row.
-/
import Idealize.ShloMosaic.Lib.ValueIdx

noncomputable section

namespace Idealize.ShloMosaic.ValueIdx

open Idealize.ShloMosaic

section Rows
variable {α : Type}

/-- Those dimension numbers for a table `[N, C]`, start indices `[E, 1]` and a result `[E, C]`; their conditions are
    decided on a program's literal shapes. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start word names in a table of `N` rows: the word read signed, clamped into `[0, N - 1]`. -/
def clampRow (N : Nat) {w : Nat} (v : BitVec w) : Nat := min v.toInt.toNat (N - 1)

theorem clampRow_lt {N : Nat} (hN : 0 < N) {w : Nat} (v : BitVec w) : clampRow N v < N := by
  unfold clampRow; omega

/-- THE GATHER READ AT `(e, k)`: the table at row `clampRow N idx[e, 0]`, column `k`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowsDims N C E wf) x idx (ix2 e k)
      = x (ix2 ⟨clampRow N (idx (ix2 e (0 : Fin 1))), clampRow_lt hN _⟩ k) := by
  unfold Host.gather
  congr 1
  funext a
  refine Fin.ext ?_
  match a with
  | ⟨0, _⟩ =>
    show (rowsDims N C E wf).start (ix2 e k) idx 0 + (rowsDims N C E wf).batchCoord (ix2 e k) 0
      + (rowsDims N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C E wf).startIndexMap from List.mem_singleton.mpr rfl)]
    have hsi : (rowsDims N C E wf).siIdx (ix2 e k) ⟨List.idxOf (0 : Fin 2) (rowsDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N C E wf).start (ix2 e k) idx 1 + (rowsDims N C E wf).batchCoord (ix2 e k) 1
      + (rowsDims N C E wf).offCoord (ix2 e k) 1 = k.val
    rw [GatherDims.batchCoord_eq_zero _ _ _ List.not_mem_nil]
    unfold GatherDims.start
    rw [dif_neg (show ¬ (1 : Fin 2) ∈ (rowsDims N C E wf).startIndexMap from
      fun h => absurd (congrArg Fin.val (List.mem_singleton.mp h)) Nat.one_ne_zero)]
    simp only [Nat.add_zero, Nat.zero_add]
    unfold GatherDims.offCoord
    rw [dif_pos (show (1 : Fin 2) ∈ (rowsDims N C E wf).sKept from (GatherDims.mem_sKept _ _).mpr
      ⟨fun h => absurd (congrArg Fin.val (List.mem_singleton.mp h)) Nat.one_ne_zero, List.not_mem_nil⟩)]
    rfl

end Rows

end Idealize.ShloMosaic.ValueIdx

end
-- ==== Proof.EdgeScore.lean ====
/-
  The edge decoder as one function of the argument arrays.

  An edge `e` names a user row and a recipe row through the two rows of the index array; each is looked up as
  `x[i]` looks a row up (a negative word wrapped by the table's height, then clamped into the table). The score of
  the edge is a two-layer perceptron of the two embedding rows laid side by side: with `W1`'s upper half `Wu` and
  lower half `Wv`,

      score = Σ_j w2 j * max ((Σ_k u k * Wu k j + Σ_k v k * Wv k j) + b1 j) 0  +  b2.

  A product with the 256-row matrix `W1` of the concatenated row is the sum of the two half products
  (`sum_halves`): a finite sum over `Fin 256` split at 128, which holds in any commutative monoid and so needs no
  finiteness of the entries.
-/
import Idealize.ShloMosaic.PureOps.Ideal
import Idealize.ShloMosaic.Lib.ValueIdx
import proofs.«160617_j32323923870320_2_alg».proof.Proof.LibGatherRows

noncomputable section

open scoped BigOperators

namespace Cert.EdgeScore

open Idealize.ShloMosaic Idealize.ShloMosaic.ValueIdx

/-- The perceptron's score of one pair of embedding rows `u`, `v`, before the output bias: the hidden layer
    `max (u·Wu + v·Wv + b1) 0` contracted with the output weights `w2`. The zero of the rectifier is kept as the
    word both programs spell it with. -/
def pairScore (u v : Fin 128 → EReal) (Wu Wv : Fin 128 → Fin 128 → EReal) (b1 w2 : Fin 128 → EReal) : EReal :=
  ∑ j : Fin 128, w2 j * max ((∑ k : Fin 128, u k * Wu k j + ∑ k : Fin 128, v k * Wv k j) + b1 j)
    (Ideal.ofBits .f32 0x00000000#32)

/-- The row `x[i]` reads in a table of `N` rows for the index word `i`: `i + N` if `i` is negative, else `i`; the
    result read signed and clamped into `[0, N - 1]`. -/
def tableRow (N : Nat) (i : BitVec 32) : Nat :=
  clampRow N (Scalar.select (IntOp.cmpi .slt i 0#32) (IntOp.addi i (BitVec.ofNat 32 N)) i)

theorem tableRow_lt {N : Nat} (hN : 0 < N) (i : BitVec 32) : tableRow N i < N := clampRow_lt hN _

/-- The user row of edge `e`. -/
def userRow (ei : IVec ⟨2, ![2, 1000000]⟩ 32) (e : Fin 1000000) : Fin 100000 :=
  ⟨tableRow 100000 (ei (ix2 (0 : Fin 2) e)), tableRow_lt (by decide) _⟩
/-- The recipe row of edge `e`. -/
def recipeRow (ei : IVec ⟨2, ![2, 1000000]⟩ 32) (e : Fin 1000000) : Fin 50000 :=
  ⟨tableRow 50000 (ei (ix2 (1 : Fin 2) e)), tableRow_lt (by decide) _⟩

/-- Row `k` of `W1`'s upper half. -/
abbrev upper (k : Fin 128) : Fin 256 := ⟨k.val, by omega⟩
/-- Row `k` of `W1`'s lower half. -/
abbrev lower (k : Fin 128) : Fin 256 := ⟨128 + k.val, by omega⟩

/-- THE RESULT: the score of every edge, as a function of the seven argument arrays. -/
def edgeScores (zu : FVec Ideal ⟨2, ![100000, 128]⟩ .f32) (zr : FVec Ideal ⟨2, ![50000, 128]⟩ .f32)
    (ei : IVec ⟨2, ![2, 1000000]⟩ 32) (W1 : FVec Ideal ⟨2, ![256, 128]⟩ .f32) (b1 : FVec Ideal ⟨1, ![128]⟩ .f32)
    (W2 : FVec Ideal ⟨2, ![128, 1]⟩ .f32) (b2 : FVec Ideal ⟨1, ![1]⟩ .f32) (e : Fin 1000000) : EReal :=
  pairScore (fun k => zu (ix2 (userRow ei e) k)) (fun k => zr (ix2 (recipeRow ei e) k))
      (fun k j => W1 (ix2 (upper k) j)) (fun k j => W1 (ix2 (lower k) j))
      (fun j => b1 (ix1 j)) (fun j => W2 (ix2 j (0 : Fin 1)))
    + b2 (ix1 (0 : Fin 1))

/-- A sum over the 256 rows is the sum over the upper half plus the sum over the lower half. -/
theorem sum_halves {M : Type*} [AddCommMonoid M] (f : Fin 256 → M) :
    ∑ k : Fin 256, f k = ∑ k : Fin 128, f (upper k) + ∑ k : Fin 128, f (lower k) := by
  have h := Fin.sum_univ_add (a := 128) (b := 128) (fun i : Fin (128 + 128) => f i)
  exact h.trans (congrArg₂ (· + ·) (Finset.sum_congr rfl fun k _ => congrArg f (Fin.ext rfl))
    (Finset.sum_congr rfl fun k _ => congrArg f (Fin.ext rfl)))

end Cert.EdgeScore

end
-- ==== Proof.BlockScore.lean ====
/-
  The kernel body's value at one edge of a block.

  The body loads a block of 8192 user rows `x0` and 8192 recipe rows `x1`, the two halves `x2`, `x3` of the first
  weight matrix, the hidden bias `x4` and the output weights `x5` as a row, and stores the row
  `x5 · relu (x0 x2 + x1 x3 + x4)ᵀ`. At the ideal values a matrix product into a zero accumulator is the plain sum over
  the contracted axis and a change of float format is the identity, so entry `r` of the stored row is the
  perceptron's score of the `r`-th pair of rows of the block.
-/
import proofs.«160617_j32323923870320_2_alg».proof.Proof.Gen.KernelIdeal.Skeleton
import proofs.«160617_j32323923870320_2_alg».proof.Proof.EdgeScore
import Idealize.ShloMosaic.Lib.Pipeline.Value
import Idealize.ShloMosaic.Lib.ValueLayout
import Idealize.ShloMosaic.PureOps.Ideal.Laws

noncomputable section

open scoped BigOperators

namespace Cert.KernelIdeal.Block

open Cert.KernelIdeal Cert.KernelIdeal.Gen Cert.EdgeScore
open Idealize.ShloMosaic Idealize.ShloMosaic.ValueIdx

local notation "DA" => dot_S8192x128_S128x128_S8192x128_1_0_0_1_n_n
local notation "DB" => dot_S1x128_S8192x128_S1x8192_1_1_0_0_n_n

/-! The operand indices of the two products, coordinate by coordinate: a kept axis reads the output index, the
    contracted axis the contraction index's one coordinate. -/

theorem lhsA_0 (i : S8192x128.Idx) (q : (DA).contr.Idx) : ((DA).lhsIdx i q 0).val = (i 0).val := by
  unfold DotDims.lhsIdx
  rw [dif_neg (show ¬(0 : Fin S8192x128.rank) ∈ (DA).lhsBatch by decide),
    dif_pos (show (0 : Fin S8192x128.rank) ∈ (DA).lhsNonContracting by decide)]
  rfl
theorem lhsA_1 (i : S8192x128.Idx) (q : (DA).contr.Idx) : ((DA).lhsIdx i q 1).val = (q ⟨0, by decide⟩).val :=
  (DA).lhsIdx_val_of_single rfl i q
theorem rhsA_0 (i : S8192x128.Idx) (q : (DA).contr.Idx) : ((DA).rhsIdx i q 0).val = (q ⟨0, by decide⟩).val :=
  (DA).rhsIdx_val_of_single rfl i q
theorem rhsA_1 (i : S8192x128.Idx) (q : (DA).contr.Idx) : ((DA).rhsIdx i q 1).val = (i 1).val := by
  unfold DotDims.rhsIdx
  rw [dif_neg (show ¬(1 : Fin S128x128.rank) ∈ (DA).rhsBatch by decide),
    dif_pos (show (1 : Fin S128x128.rank) ∈ (DA).rhsNonContracting by decide)]
  rfl

theorem lhsB_0 (i : S1x8192.Idx) (q : (DB).contr.Idx) : ((DB).lhsIdx i q 0).val = (i 0).val := by
  unfold DotDims.lhsIdx
  rw [dif_neg (show ¬(0 : Fin S1x128.rank) ∈ (DB).lhsBatch by decide),
    dif_pos (show (0 : Fin S1x128.rank) ∈ (DB).lhsNonContracting by decide)]
  rfl
theorem lhsB_1 (i : S1x8192.Idx) (q : (DB).contr.Idx) : ((DB).lhsIdx i q 1).val = (q ⟨0, by decide⟩).val :=
  (DB).lhsIdx_val_of_single rfl i q
theorem rhsB_0 (i : S1x8192.Idx) (q : (DB).contr.Idx) : ((DB).rhsIdx i q 0).val = (i 1).val := by
  unfold DotDims.rhsIdx
  rw [dif_neg (show ¬(0 : Fin S8192x128.rank) ∈ (DB).rhsBatch by decide),
    dif_pos (show (0 : Fin S8192x128.rank) ∈ (DB).rhsNonContracting by decide)]
  rfl
theorem rhsB_1 (i : S1x8192.Idx) (q : (DB).contr.Idx) : ((DB).rhsIdx i q 1).val = (q ⟨0, by decide⟩).val :=
  (DB).rhsIdx_val_of_single rfl i q

/-- A block of rows times a 128 × 128 matrix, into zero: entry `(r, j)` is the sum over `k` of row `r`'s entry `k`
    times the matrix's entry `(k, j)`. -/
theorem rows_matmul_apply (x : FVec Ideal S8192x128 .bf16) (w : FVec Ideal S128x128 .bf16) (r : Fin 8192) (j : Fin 128) :
    matmul (DA) none x w (constant (F := Ideal) S8192x128 .f32 0x00000000#32) (ix2 r j)
      = ∑ k : Fin 128, x (ix2 r k) * w (ix2 k j) := by
  simp only [matmul]
  rw [Ideal.matmul_constant_zero_apply, ← Equiv.sum_comp (contrEquiv1 (DA) 128 rfl rfl).symm]
  refine Finset.sum_congr rfl fun k _ => ?_
  have hk := contrEquiv1_symm_val (DA) 128 rfl rfl k
  have el : (DA).lhsIdx (ix2 r j) ((contrEquiv1 (DA) 128 rfl rfl).symm k) = ix2 r k := funext fun a => Fin.ext (by
    match a with
    | ⟨0, _⟩ => exact lhsA_0 _ _
    | ⟨1, _⟩ => exact (lhsA_1 _ _).trans hk)
  have er : (DA).rhsIdx (ix2 r j) ((contrEquiv1 (DA) 128 rfl rfl).symm k) = ix2 k j := funext fun a => Fin.ext (by
    match a with
    | ⟨0, _⟩ => exact (rhsA_0 _ _).trans hk
    | ⟨1, _⟩ => exact rhsA_1 _ _)
  rw [el, er]

/-- The output weights as a row against a block of hidden rows, both contracted along their 128 columns, into zero:
    entry `(u, r)` is the sum over `j` of the weight `j` times hidden row `r`'s entry `j`. -/
theorem row_matmul_apply (w2 : FVec Ideal S1x128 .bf16) (h : FVec Ideal S8192x128 .bf16) (u : Fin 1) (r : Fin 8192) :
    matmul (DB) none w2 h (constant (F := Ideal) S1x8192 .f32 0x00000000#32) (ix2 u r)
      = ∑ j : Fin 128, w2 (ix2 u j) * h (ix2 r j) := by
  simp only [matmul]
  rw [Ideal.matmul_constant_zero_apply, ← Equiv.sum_comp (contrEquiv1 (DB) 128 rfl rfl).symm]
  refine Finset.sum_congr rfl fun k _ => ?_
  have hk := contrEquiv1_symm_val (DB) 128 rfl rfl k
  have el : (DB).lhsIdx (ix2 u r) ((contrEquiv1 (DB) 128 rfl rfl).symm k) = ix2 u k := funext fun a => Fin.ext (by
    match a with
    | ⟨0, _⟩ => exact lhsB_0 _ _
    | ⟨1, _⟩ => exact (lhsB_1 _ _).trans hk)
  have er : (DB).rhsIdx (ix2 u r) ((contrEquiv1 (DB) 128 rfl rfl).symm k) = ix2 r k := funext fun a => Fin.ext (by
    match a with
    | ⟨0, _⟩ => exact rhsB_0 _ _
    | ⟨1, _⟩ => exact (rhsB_1 _ _).trans hk)
  rw [el, er]

/-- The hidden bias, a vector of 128, laid as a row and repeated down the 8192 rows: entry `(r, j)` is the bias `j`. -/
theorem bias_rows_apply (b : Vec Ideal S128 .f32) (r : Fin 8192) (j : Fin 128) :
    broadcastTo S8192x128 (shapeCast S1x128 b shapeCasts_S128_S1x128) broadcasts_S1x128_S8192x128 (ix2 r j) = b (ix1 j) := by
  rw [broadcastTo_apply _ broadcasts_S1x128_S8192x128 (ix2 r j) (ix2 (0 : Fin 1) j) (fun a => by
    match a with
    | ⟨0, _⟩ => rfl
    | ⟨1, _⟩ => rfl)]
  exact shapeCast_a_1a_apply b shapeCasts_S128_S1x128 (0 : Fin 1) j

/-- THE BODY'S ROW AT ENTRY `r`: the score of the block's `r`-th pair of rows. -/
theorem pay_apply (x0 x1 : Vec Ideal S8192x128 .bf16) (x2 x3 : Vec Ideal S128x128 .bf16) (x4 : Vec Ideal S128 .f32)
    (x5 : Vec Ideal S1x128 .bf16) (u : Fin 1) (r : Fin 8192) :
    k0_pay1 (F := Ideal) x0 x1 x2 x3 x4 x5 (ix2 u r)
      = pairScore (fun k => x0 (ix2 r k)) (fun k => x1 (ix2 r k)) (fun k j => x2 (ix2 k j)) (fun k j => x3 (ix2 k j))
          (fun j => x4 (ix1 j)) (fun j => x5 (ix2 u j)) := by
  unfold k0_pay1 pairScore
  simp only [shapeCast_self]
  rw [row_matmul_apply]
  refine Finset.sum_congr rfl fun j _ => ?_
  show x5 (ix2 u j) * max ((matmul (DA) none x0 x2 (constant (F := Ideal) S8192x128 .f32 0x00000000#32) (ix2 r j)
      + matmul (DA) none x1 x3 (constant (F := Ideal) S8192x128 .f32 0x00000000#32) (ix2 r j))
      + broadcastTo S8192x128 (shapeCast S1x128 x4 shapeCasts_S128_S1x128) broadcasts_S1x128_S8192x128 (ix2 r j))
      (Ideal.ofBits .f32 0x00000000#32) = _
  rw [rows_matmul_apply, rows_matmul_apply, bias_rows_apply]

end Cert.KernelIdeal.Block

end
-- ==== Proof.RegionScores.lean ====
/-
  The region's output array: one score per padded edge.

  The grid has 123 points. Point `t` reads rows `8192 t … 8192 t + 8191` of the two gathered row arrays and the whole
  of the four small operands, and writes entries `8192 t … 8192 t + 8191` of the one output row. The 123 blocks of the
  output tile its 1007616 entries, so after the region entry `p` of the output row is the score of the `p`-th pair
  of gathered rows: one function of the arrays as the region finds them.
-/
import proofs.«160617_j32323923870320_2_alg».proof.Proof.Gen.KernelIdeal.Frame
import proofs.«160617_j32323923870320_2_alg».proof.Proof.BlockScore
import Idealize.ShloMosaic.Lib.Pipeline.Value

noncomputable section

open scoped BigOperators

namespace Cert.KernelIdeal.Region

open Cert.KernelIdeal Cert.KernelIdeal.Gen Cert.KernelIdeal.Block Cert.EdgeScore
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The output row as a function of the region's six operand arrays: entry `p` is the score of the pair of rows `p`
    of the two gathered arrays `U`, `R` under the weights `A`, `B`, `b`, `w`. -/
def rowScores (U R : S1007616x128.Idx → Elt Ideal .bf16) (A B : S128x128.Idx → Elt Ideal .bf16)
    (b : S128.Idx → Elt Ideal .f32) (w : S1x128.Idx → Elt Ideal .bf16) : S1x1007616.Idx → Elt Ideal .f32 := fun i =>
  pairScore (fun k => U (ix2 (⟨(i 1).val, idx2_lt1 i⟩ : Fin 1007616) k)) (fun k => R (ix2 (⟨(i 1).val, idx2_lt1 i⟩ : Fin 1007616) k))
    (fun k j => A (ix2 k j)) (fun k j => B (ix2 k j)) (fun j => b (ix1 j)) (fun j => w (ix2 (0 : Fin 1) j))

theorem zero2 : (![0, 0] : Fin 2 → Nat) = fun _ => 0 := funext fun a => by fin_cases a <;> rfl
theorem zero1 : (![0] : Fin 1 → Nat) = fun _ => 0 := funext fun a => by fin_cases a; rfl

/-- The printed index maps, decided over the 123 points: the two row windows move with the output window, the four
    small windows stay at block 0, and the output's block along its long axis is the point's number. -/
theorem index_facts : ∀ t : Fin cfg0.N,
    win0_0.index t (0 : Fin 2) = win0_6.index t (1 : Fin 2) ∧ win0_0.index t (1 : Fin 2) = 0
    ∧ win0_1.index t (0 : Fin 2) = win0_6.index t (1 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = 0 ∧ win0_6.index t (1 : Fin 2) = t.val :=
  (by decide +kernel : ∀ t : Fin grid0.N, _)

/-- Each input window's block at a point, read at an index of the block: the window's array, as the region finds it,
    at the index the block's embedding gives. -/
theorem read0 (c : Dev nD) (t : Fin cfg0.N) (y : S8192x128.Idx) :
    iblk m c 0 t y = V m c main_v14 (((cfg0.win 0).blk t).view.emb y) := rfl
theorem read1 (c : Dev nD) (t : Fin cfg0.N) (y : S8192x128.Idx) :
    iblk m c 1 t y = V m c main_v21 (((cfg0.win 1).blk t).view.emb y) := rfl
theorem read2 (c : Dev nD) (t : Fin cfg0.N) (y : S128x128.Idx) :
    iblk m c 2 t y = V m c main_v23 (((cfg0.win 2).blk t).view.emb y) := rfl
theorem read3 (c : Dev nD) (t : Fin cfg0.N) (y : S128x128.Idx) :
    iblk m c 3 t y = V m c main_v25 (((cfg0.win 3).blk t).view.emb y) := rfl
theorem read4 (c : Dev nD) (t : Fin cfg0.N) (y : S128.Idx) :
    iblk m c 4 t y = V m c main_arg4 (((cfg0.win 4).blk t).view.emb y) := rfl
theorem read5 (c : Dev nD) (t : Fin cfg0.N) (y : S1x128.Idx) :
    iblk m c 5 t y = V m c main_v27 (((cfg0.win 5).blk t).view.emb y) := rfl

/-- WHAT POINT `t` WRITES BACK is block `t` of the row of scores of the arrays as the region finds them. -/
theorem flushed_eq (c : Dev nD) (t : Fin cfg0.N) :
    (dats m 0 c).flushed 6 t = ((cfg0.win 6).blk t).view.read (Elt Ideal)
      (rowScores (V m c main_v14) (V m c main_v21) (V m c main_v23) (V m c main_v25) (V m c main_arg4) (V m c main_v27)) := by
  show (cfg0.win 6).cut (grid0.coords t) ((dats m 0 c).after 6 t) = _
  rw [after0_6]
  unfold out0_6
  rw [View.canon_unit_zero zero2]
  simp only [View.ld_unit_zero (S := S8192x128) zero2, View.ld_unit_zero (S := S128x128) zero2,
    View.ld_unit_zero (S := S128) zero1, View.ld_unit_zero (S := S1x128) zero2]
  obtain ⟨e0, e1, e2, e3, e4, e5, e6, e7, e8, e9, e10, e11, e12⟩ := index_facts t
  funext y
  obtain ⟨u, r, rfl⟩ : ∃ (u : Fin 1) (r : Fin 8192), y = ix2 u r := ⟨y 0, y 1, eq_ix2 y⟩
  show k0_pay1 (iblk m c 0 t) (iblk m c 1 t) (iblk m c 2 t) (iblk m c 3 t) (iblk m c 4 t) (iblk m c 5 t) (ix2 u r)
    = rowScores (V m c main_v14) (V m c main_v21) (V m c main_v23) (V m c main_v25) (V m c main_arg4) (V m c main_v27)
        (((cfg0.win 6).blk t).view.emb (ix2 u r))
  refine (pay_apply _ _ _ _ _ _ u r).trans ?_
  unfold rowScores
  have hu : u = (0 : Fin 1) := Subsingleton.elim _ _
  subst hu
  have h0 : ∀ k : Fin 128, ((cfg0.win 0).blk t).view.emb (ix2 r k)
      = ix2 (⟨((((cfg0.win 6).blk t).view.emb (ix2 (0 : Fin 1) r)) 1).val, idx2_lt1 _⟩ : Fin 1007616) k := fun k => by
    funext a; apply Fin.ext
    match a with
    | ⟨0, _⟩ => show win0_0.index t (0 : Fin 2) * 8192 + 1 * r.val = win0_6.index t (1 : Fin 2) * 8192 + 1 * r.val; omega
    | ⟨1, _⟩ => show win0_0.index t (1 : Fin 2) * 128 + 1 * k.val = k.val; omega
  have h1 : ∀ k : Fin 128, ((cfg0.win 1).blk t).view.emb (ix2 r k)
      = ix2 (⟨((((cfg0.win 6).blk t).view.emb (ix2 (0 : Fin 1) r)) 1).val, idx2_lt1 _⟩ : Fin 1007616) k := fun k => by
    funext a; apply Fin.ext
    match a with
    | ⟨0, _⟩ => show win0_1.index t (0 : Fin 2) * 8192 + 1 * r.val = win0_6.index t (1 : Fin 2) * 8192 + 1 * r.val; omega
    | ⟨1, _⟩ => show win0_1.index t (1 : Fin 2) * 128 + 1 * k.val = k.val; omega
  have h2 : ∀ (k j : Fin 128), ((cfg0.win 2).blk t).view.emb (ix2 k j) = ix2 k j := fun k j => by
    funext a; apply Fin.ext
    match a with
    | ⟨0, _⟩ => show win0_2.index t (0 : Fin 2) * 128 + 1 * k.val = k.val; omega
    | ⟨1, _⟩ => show win0_2.index t (1 : Fin 2) * 128 + 1 * j.val = j.val; omega
  have h3 : ∀ (k j : Fin 128), ((cfg0.win 3).blk t).view.emb (ix2 k j) = ix2 k j := fun k j => by
    funext a; apply Fin.ext
    match a with
    | ⟨0, _⟩ => show win0_3.index t (0 : Fin 2) * 128 + 1 * k.val = k.val; omega
    | ⟨1, _⟩ => show win0_3.index t (1 : Fin 2) * 128 + 1 * j.val = j.val; omega
  have h4 : ∀ j : Fin 128, ((cfg0.win 4).blk t).view.emb (ix1 j) = ix1 j := fun j => by
    funext a; apply Fin.ext
    match a with
    | ⟨0, _⟩ => show win0_4.index t (0 : Fin 1) * 128 + 1 * j.val = j.val; omega
  have h5 : ∀ j : Fin 128, ((cfg0.win 5).blk t).view.emb (ix2 (0 : Fin 1) j) = ix2 (0 : Fin 1) j := fun j => by
    funext a; apply Fin.ext
    match a with
    | ⟨0, _⟩ => show win0_5.index t (0 : Fin 2) * 1 + 1 * 0 = 0; omega
    | ⟨1, _⟩ => show win0_5.index t (1 : Fin 2) * 128 + 1 * j.val = j.val; omega
  have g0 : (fun k : Fin 128 => iblk m c 0 t (ix2 r k)) = fun k => V m c main_v14
      (ix2 (⟨((((cfg0.win 6).blk t).view.emb (ix2 (0 : Fin 1) r)) 1).val, idx2_lt1 _⟩ : Fin 1007616) k) :=
    funext fun k => (read0 m c t (ix2 r k)).trans (congrArg (V m c main_v14) (h0 k))
  have g1 : (fun k : Fin 128 => iblk m c 1 t (ix2 r k)) = fun k => V m c main_v21
      (ix2 (⟨((((cfg0.win 6).blk t).view.emb (ix2 (0 : Fin 1) r)) 1).val, idx2_lt1 _⟩ : Fin 1007616) k) :=
    funext fun k => (read1 m c t (ix2 r k)).trans (congrArg (V m c main_v21) (h1 k))
  have g2 : (fun k j : Fin 128 => iblk m c 2 t (ix2 k j)) = fun k j => V m c main_v23 (ix2 k j) :=
    funext fun k => funext fun j => (read2 m c t (ix2 k j)).trans (congrArg (V m c main_v23) (h2 k j))
  have g3 : (fun k j : Fin 128 => iblk m c 3 t (ix2 k j)) = fun k j => V m c main_v25 (ix2 k j) :=
    funext fun k => funext fun j => (read3 m c t (ix2 k j)).trans (congrArg (V m c main_v25) (h3 k j))
  have g4 : (fun j : Fin 128 => iblk m c 4 t (ix1 j)) = fun j => V m c main_arg4 (ix1 j) :=
    funext fun j => (read4 m c t (ix1 j)).trans (congrArg (V m c main_arg4) (h4 j))
  have g5 : (fun j : Fin 128 => iblk m c 5 t (ix2 (0 : Fin 1) j)) = fun j => V m c main_v27 (ix2 (0 : Fin 1) j) :=
    funext fun j => (read5 m c t (ix2 (0 : Fin 1) j)).trans (congrArg (V m c main_v27) (h5 j))
  rw [g0, g1, g2, g3, g4, g5]

/-- An index of the output row is in point `t`'s block iff each coordinate is in the block's range on its axis. -/
theorem mem_blk (t : Fin cfg0.N) (i : S1x1007616.Idx) :
    i ∈ ((cfg0.win 6).blk t).view.set ↔ ∀ a : Fin 2, win0_6.index t a * S1x8192.size a ≤ (i a).val
      ∧ (i a).val < win0_6.index t a * S1x8192.size a + S1x8192.size a := by
  show i ∈ ((View.whole main_v28).slice (win0_6.rect t)).set ↔ _
  rw [View.set_slice_whole, Rect.mem_set_unit]
  exact Iff.rfl

/-- Every entry of the output row is in some point's block: entry `p` in point `p / 8192`'s. -/
theorem covered (i : S1x1007616.Idx) :
    ∃ t : Fin cfg0.N, (cfg0.win 6).flush t = true ∧ i ∈ ((cfg0.win 6).blk t).view.set := by
  have hi0 : (i 0).val < 1 := idx2_lt0 i
  have hi1 : (i 1).val < 1007616 := idx2_lt1 i
  have hlt : (i 1).val / 8192 < cfg0.N := by
    show (i 1).val / 8192 < grid0.N
    rw [N_0]; omega
  obtain ⟨-, -, -, -, -, -, -, -, -, -, -, e11, e12⟩ := index_facts ⟨(i 1).val / 8192, hlt⟩
  refine ⟨⟨(i 1).val / 8192, hlt⟩, flush0_6 _, ?_⟩
  rw [mem_blk]
  intro a
  match a with
  | ⟨0, _⟩ =>
    show win0_6.index ⟨(i 1).val / 8192, hlt⟩ (0 : Fin 2) * 1 ≤ (i 0).val
      ∧ (i 0).val < win0_6.index ⟨(i 1).val / 8192, hlt⟩ (0 : Fin 2) * 1 + 1
    omega
  | ⟨1, _⟩ =>
    show win0_6.index ⟨(i 1).val / 8192, hlt⟩ (1 : Fin 2) * 8192 ≤ (i 1).val
      ∧ (i 1).val < win0_6.index ⟨(i 1).val / 8192, hlt⟩ (1 : Fin 2) * 8192 + 8192
    have e12' : win0_6.index ⟨(i 1).val / 8192, hlt⟩ (1 : Fin 2) = (i 1).val / 8192 := e12
    omega

/-- THE OUTPUT ROW after the region: the row of scores of the arrays as the region finds them. -/
theorem final (c : Dev nD) : (dats m 0 c).arrAt 6 cfg0.N
    = rowScores (V m c main_v14) (V m c main_v21) (V m c main_v23) (V m c main_v25) (V m c main_arg4) (V m c main_v27) :=
  (dats m 0 c).arrAt_eq_of_cover 6 _ (fun t _ => flushed_eq m c t) covered

end Cert.KernelIdeal.Region

end
-- ==== Proof.EntryArrays.lean ====
/-
  The arrays as the region finds them, read at an index.

  Before the region the host cuts the two rows out of the index array, pads each with 7616 zeros at the end (to a
  whole number of blocks), wraps negative words by the table's height and gathers the rows of the two embedding
  tables; it cuts the first weight matrix into its upper and lower halves and transposes the output weights into a
  row. Changes of float format are the identity at the ideal values. So, at an unpadded position `e`, the two
  gathered arrays hold the user row and the recipe row of edge `e`, and the small operands are the halves of `W1`
  and the column `W2` read as a row.
-/
import proofs.«160617_j32323923870320_2_alg».proof.Proof.Gen.KernelIdeal.Frame
import proofs.«160617_j32323923870320_2_alg».proof.Proof.EdgeScore
import proofs.«160617_j32323923870320_2_alg».proof.Proof.LibGatherRows
import Idealize.ShloMosaic.Lib.Pipeline.Value
import Idealize.ShloMosaic.Lib.ValueLayout
import Idealize.ShloMosaic.Lib.KernelVsHost
import Idealize.ShloMosaic.Lib.StableHlo.Run

noncomputable section

namespace Cert.KernelIdeal.Entry

open Cert.KernelIdeal Cert.KernelIdeal.Gen Cert.EdgeScore
open Idealize.ShloMosaic Idealize.ShloMosaic.TcCoe Idealize.ShloMosaic.ValueIdx Idealize.SL.Sem
open Idealize.ShloMosaic.StableHlo

/-! ## The host's operations on abstract arrays -/

/-- Row `a` of the index array, cut out and flattened: entry `e` is the array's `(a, e)`. -/
theorem row0_apply (ei : IVec S2x1000000 32) (e : Fin 1000000) :
    shapeCast S1000000 (extractStridedSlice S1x1000000 ![0, 0] ei slices_S2x1000000_S1x1000000_0_0)
      shapeCasts_S1x1000000_S1000000 (ix1 e) = ei (ix2 (0 : Fin 2) e) := by
  rw [shapeCast_apply _ shapeCasts_S1x1000000_S1000000 (ix1 e) (ix2 (0 : Fin 1) e) (by
    rw [Shape.rowMajor_val_two, Shape.rowMajor_val_one]; show 0 * 1000000 + e.val = e.val; omega)]
  exact extractStridedSlice_apply _ ei slices_S2x1000000_S1x1000000_0_0 _ (ix2 (0 : Fin 2) e) (fun a => by
    match a with
    | ⟨0, _⟩ => rfl
    | ⟨1, _⟩ => show e.val = 0 + e.val; omega)

theorem row1_apply (ei : IVec S2x1000000 32) (e : Fin 1000000) :
    shapeCast S1000000 (extractStridedSlice S1x1000000 ![1, 0] ei slices_S2x1000000_S1x1000000_1_0)
      shapeCasts_S1x1000000_S1000000 (ix1 e) = ei (ix2 (1 : Fin 2) e) := by
  rw [shapeCast_apply _ shapeCasts_S1x1000000_S1000000 (ix1 e) (ix2 (0 : Fin 1) e) (by
    rw [Shape.rowMajor_val_two, Shape.rowMajor_val_one]; show 0 * 1000000 + e.val = e.val; omega)]
  exact extractStridedSlice_apply _ ei slices_S2x1000000_S1x1000000_1_0 _ (ix2 (1 : Fin 2) e) (fun a => by
    match a with
    | ⟨0, _⟩ => rfl
    | ⟨1, _⟩ => show e.val = 0 + e.val; omega)

/-- The index vector padded at its end: at an unpadded position it is the vector. -/
theorem padded_apply (x : IVec S1000000 32) (z : IVec S_ 32) (e : Fin 1000000) :
    pad S1007616 ![0] ![7616] ![0] x z pads_S1000000_S1007616_076160 h_S_ (ix1 (⟨e.val, by omega⟩ : Fin 1007616)) = x (ix1 e) :=
  pad_apply_of_inside _ _ _ x z pads_S1000000_S1007616_076160 h_S_ _ (ix1 e) (fun a => by
    match a with
    | ⟨0, _⟩ => show e.val = 0 + e.val * (0 + 1); omega)

/-- A scalar word repeated along the padded vector reads the word. -/
theorem splat_apply (v : BitVec 32) (p : Fin 1007616) :
    broadcastInDim S1007616 ![] bcast_S_S1007616 (constantI S_ 32 v) (ix1 p) = v := by
  rw [broadcastInDim_apply _ bcast_S_S1007616 _ (ix1 p) ix0 (fun a => a.elim0)]
  rfl

/-- The wrapped index vector as a column of start indices: at `(p, 0)` the word at `p`, plus the table's height if it
    is negative. -/
theorem wrapped_apply (N : BitVec 32) (P : IVec S1007616 32) (p : Fin 1007616) :
    broadcastInDim S1007616x1 ![0] bcast_S1007616_S1007616x1_0
        (select (cmpi .slt P (broadcastInDim S1007616 ![] bcast_S_S1007616 (constantI S_ 32 0#32)))
          (addi P (broadcastInDim S1007616 ![] bcast_S_S1007616 (constantI S_ 32 N))) P) (ix2 p (0 : Fin 1))
      = Scalar.select (IntOp.cmpi .slt (P (ix1 p)) 0#32) (IntOp.addi (P (ix1 p)) N) (P (ix1 p)) := by
  rw [broadcastInDim_apply _ bcast_S1007616_S1007616x1_0 _ (ix2 p (0 : Fin 1)) (ix1 p) (fun a => by
    match a with
    | ⟨0, _⟩ => show p.val = if (1007616 : Nat) = 1 then 0 else p.val; rw [if_neg (by decide)])]
  show Scalar.select (IntOp.cmpi .slt (P (ix1 p)) (broadcastInDim S1007616 ![] bcast_S_S1007616 (constantI S_ 32 0#32) (ix1 p)))
    (IntOp.addi (P (ix1 p)) (broadcastInDim S1007616 ![] bcast_S_S1007616 (constantI S_ 32 N) (ix1 p))) (P (ix1 p)) = _
  rw [splat_apply, splat_apply]

/-- The user table's rows gathered at the wrapped column: row `p` is the table's row the wrapped word names. -/
theorem users_apply (zu : FVec Ideal S100000x128 .bf16) (idx : IVec S1007616x1 32) (p : Fin 1007616) (k : Fin 128) :
    Host.gather gather_S100000x128_S1007616x1_S1007616x128_1_0_n_n_0_1_1128 zu idx (ix2 p k)
      = zu (ix2 (⟨clampRow 100000 (idx (ix2 p (0 : Fin 1))), clampRow_lt (by decide) _⟩ : Fin 100000) k) :=
  gather_rows_apply (by decide) Facts₀.gather_S100000x128_S1007616x1_S1007616x128_1_0_n_n_0_1_1128_wf zu idx p k

/-- The recipe table's rows gathered likewise. -/
theorem recipes_apply (zr : FVec Ideal S50000x128 .bf16) (idx : IVec S1007616x1 32) (p : Fin 1007616) (k : Fin 128) :
    Host.gather gather_S50000x128_S1007616x1_S1007616x128_1_0_n_n_0_1_1128 zr idx (ix2 p k)
      = zr (ix2 (⟨clampRow 50000 (idx (ix2 p (0 : Fin 1))), clampRow_lt (by decide) _⟩ : Fin 50000) k) :=
  gather_rows_apply (by decide) Facts₀.gather_S50000x128_S1007616x1_S1007616x128_1_0_n_n_0_1_1128_wf zr idx p k

/-- The upper half of the first weight matrix. -/
theorem upper_apply (W1 : FVec Ideal S256x128 .f32) (k j : Fin 128) :
    extractStridedSlice S128x128 ![0, 0] W1 slices_S256x128_S128x128_0_0 (ix2 k j) = W1 (ix2 (upper k) j) :=
  extractStridedSlice_apply _ W1 slices_S256x128_S128x128_0_0 _ (ix2 (upper k) j) (fun a => by
    match a with
    | ⟨0, _⟩ => show k.val = 0 + k.val; omega
    | ⟨1, _⟩ => show j.val = 0 + j.val; omega)

/-- The lower half of the first weight matrix. -/
theorem lower_apply (W1 : FVec Ideal S256x128 .f32) (k j : Fin 128) :
    extractStridedSlice S128x128 ![128, 0] W1 slices_S256x128_S128x128_128_0 (ix2 k j) = W1 (ix2 (lower k) j) :=
  extractStridedSlice_apply _ W1 slices_S256x128_S128x128_128_0 _ (ix2 (lower k) j) (fun a => by
    match a with
    | ⟨0, _⟩ => show 128 + k.val = 128 + k.val; rfl
    | ⟨1, _⟩ => show j.val = 0 + j.val; omega)

/-- The output weights, a column, transposed into a row. -/
theorem w2row_apply (W2 : FVec Ideal S128x1 .f32) (j : Fin 128) :
    transpose S1x128 [1, 0] W2 transposes_S128x1_S1x128_1_0 (ix2 (0 : Fin 1) j) = W2 (ix2 j (0 : Fin 1)) :=
  transpose_ix2_apply W2 transposes_S128x1_S1x128_1_0 (0 : Fin 1) j

/-! ## The region's six operands -/

variable (m : (ℓ : Loc nD τ sig) → Buf (Elt Ideal) ℓ)

/-- The user index vector, padded. -/
def paddedUsers (c : Dev nD) : IVec S1007616 32 :=
  pad S1007616 ![0] ![7616] ![0]
    (shapeCast S1000000 (extractStridedSlice S1x1000000 ![0, 0] (m ((c : Thread nD τ).loc main_arg2)) slices_S2x1000000_S1x1000000_0_0)
      shapeCasts_S1x1000000_S1000000)
    (id (constantI S_ 32 0#32)) pads_S1000000_S1007616_076160 h_S_
/-- The recipe index vector, padded. -/
def paddedRecipes (c : Dev nD) : IVec S1007616 32 :=
  pad S1007616 ![0] ![7616] ![0]
    (shapeCast S1000000 (extractStridedSlice S1x1000000 ![1, 0] (m ((c : Thread nD τ).loc main_arg2)) slices_S2x1000000_S1x1000000_1_0)
      shapeCasts_S1x1000000_S1000000)
    (id (constantI S_ 32 0#32)) pads_S1000000_S1007616_076160 h_S_

/-- Operand 0: the user rows gathered at the padded, wrapped user indices. -/
theorem users_eq (c : Dev nD) : (V m c main_v14 : S1007616x128.Idx → Elt Ideal .bf16)
    = Host.gather gather_S100000x128_S1007616x1_S1007616x128_1_0_n_n_0_1_1128
        (truncf (F := Ideal) .bf16 (m ((c : Thread nD τ).loc main_arg0)) bitsLt_bf16_f32)
        (broadcastInDim S1007616x1 ![0] bcast_S1007616_S1007616x1_0
          (select (cmpi .slt (paddedUsers m c) (broadcastInDim S1007616 ![] bcast_S_S1007616 (constantI S_ 32 0#32)))
            (addi (paddedUsers m c) (broadcastInDim S1007616 ![] bcast_S_S1007616 (constantI S_ 32 100000#32))) (paddedUsers m c))) := by
  unfold paddedUsers
  dsimp only [V, V0]
  simp only [hostOps0, hostOps0_1, hostOps0_2, hostOps0_3, hostOps0_4, List.flatten_cons, List.flatten_nil,
    List.append_nil, List.cons_append, List.nil_append]
  after_results_simp
  rfl

/-- Operand 1: the recipe rows gathered at the padded, wrapped recipe indices. -/
theorem recipes_eq (c : Dev nD) : (V m c main_v21 : S1007616x128.Idx → Elt Ideal .bf16)
    = Host.gather gather_S50000x128_S1007616x1_S1007616x128_1_0_n_n_0_1_1128
        (truncf (F := Ideal) .bf16 (m ((c : Thread nD τ).loc main_arg1)) bitsLt_bf16_f32)
        (broadcastInDim S1007616x1 ![0] bcast_S1007616_S1007616x1_0
          (select (cmpi .slt (paddedRecipes m c) (broadcastInDim S1007616 ![] bcast_S_S1007616 (constantI S_ 32 0#32)))
            (addi (paddedRecipes m c) (broadcastInDim S1007616 ![] bcast_S_S1007616 (constantI S_ 32 50000#32))) (paddedRecipes m c))) := by
  unfold paddedRecipes
  dsimp only [V, V0]
  simp only [hostOps0, hostOps0_1, hostOps0_2, hostOps0_3, hostOps0_4, List.flatten_cons, List.flatten_nil,
    List.append_nil, List.cons_append, List.nil_append]
  after_results_simp
  rfl

/-- Operands 2 and 3: the halves of the first weight matrix. -/
theorem upper_eq (c : Dev nD) : (V m c main_v23 : S128x128.Idx → Elt Ideal .bf16)
    = truncf (F := Ideal) .bf16 (extractStridedSlice S128x128 ![0, 0] (m ((c : Thread nD τ).loc main_arg3)) slices_S256x128_S128x128_0_0) bitsLt_bf16_f32 := by
  dsimp only [V, V0]
  simp only [hostOps0, hostOps0_1, hostOps0_2, hostOps0_3, hostOps0_4, List.flatten_cons, List.flatten_nil,
    List.append_nil, List.cons_append, List.nil_append]
  after_results_simp
theorem lower_eq (c : Dev nD) : (V m c main_v25 : S128x128.Idx → Elt Ideal .bf16)
    = truncf (F := Ideal) .bf16 (extractStridedSlice S128x128 ![128, 0] (m ((c : Thread nD τ).loc main_arg3)) slices_S256x128_S128x128_128_0) bitsLt_bf16_f32 := by
  dsimp only [V, V0]
  simp only [hostOps0, hostOps0_1, hostOps0_2, hostOps0_3, hostOps0_4, List.flatten_cons, List.flatten_nil,
    List.append_nil, List.cons_append, List.nil_append]
  after_results_simp

/-- Operand 5: the output weights as a row. -/
theorem w2row_eq (c : Dev nD) : (V m c main_v27 : S1x128.Idx → Elt Ideal .bf16)
    = truncf (F := Ideal) .bf16 (transpose S1x128 [1, 0] (m ((c : Thread nD τ).loc main_arg5)) transposes_S128x1_S1x128_1_0) bitsLt_bf16_f32 := by
  dsimp only [V, V0]
  simp only [hostOps0, hostOps0_1, hostOps0_2, hostOps0_3, hostOps0_4, List.flatten_cons, List.flatten_nil,
    List.append_nil, List.cons_append, List.nil_append]
  after_results_simp

/-! ## The operands at an edge -/

/-- Row `e` of operand 0 is the user row of edge `e`. -/
theorem users_entry (c : Dev nD) (e : Fin 1000000) (k : Fin 128) :
    V m c main_v14 (ix2 (⟨e.val, by omega⟩ : Fin 1007616) k)
      = m ((c : Thread nD τ).loc main_arg0) (ix2 (userRow (m ((c : Thread nD τ).loc main_arg2)) e) k) := by
  rw [users_eq, users_apply, wrapped_apply]
  refine congrArg (fun r : Fin 100000 => m ((c : Thread nD τ).loc main_arg0) (ix2 r k)) (Fin.ext ?_)
  show clampRow 100000 _ = tableRow 100000 _
  unfold tableRow paddedUsers
  rw [padded_apply, row0_apply]

/-- Row `e` of operand 1 is the recipe row of edge `e`. -/
theorem recipes_entry (c : Dev nD) (e : Fin 1000000) (k : Fin 128) :
    V m c main_v21 (ix2 (⟨e.val, by omega⟩ : Fin 1007616) k)
      = m ((c : Thread nD τ).loc main_arg1) (ix2 (recipeRow (m ((c : Thread nD τ).loc main_arg2)) e) k) := by
  rw [recipes_eq, recipes_apply, wrapped_apply]
  refine congrArg (fun r : Fin 50000 => m ((c : Thread nD τ).loc main_arg1) (ix2 r k)) (Fin.ext ?_)
  show clampRow 50000 _ = tableRow 50000 _
  unfold tableRow paddedRecipes
  rw [padded_apply, row1_apply]

theorem upper_entry (c : Dev nD) (k j : Fin 128) :
    V m c main_v23 (ix2 k j) = m ((c : Thread nD τ).loc main_arg3) (ix2 (upper k) j) := by
  rw [upper_eq]
  exact upper_apply _ k j
theorem lower_entry (c : Dev nD) (k j : Fin 128) :
    V m c main_v25 (ix2 k j) = m ((c : Thread nD τ).loc main_arg3) (ix2 (lower k) j) := by
  rw [lower_eq]
  exact lower_apply _ k j
theorem bias_entry (c : Dev nD) (j : Fin 128) :
    V m c main_arg4 (ix1 j) = m ((c : Thread nD τ).loc main_arg4) (ix1 j) := by
  rw [V_main_arg4]
theorem w2row_entry (c : Dev nD) (j : Fin 128) :
    V m c main_v27 (ix2 (0 : Fin 1) j) = m ((c : Thread nD τ).loc main_arg5) (ix2 j (0 : Fin 1)) := by
  rw [w2row_eq]
  exact w2row_apply _ j

end Cert.KernelIdeal.Entry

end
-- ==== Proof.KernelScores.lean ====
/-
  The kernel program's result.

  After the region the host flattens the output row, drops the 7616 padded entries at its end and adds the output
  bias to every entry. So entry `e` of the result is entry `e` of the region's row of scores plus the bias; and
  since the region's operands at an unpadded position are the edge's two embedding rows and the weights themselves,
  the result is the edge decoder's function of the seven argument arrays.
-/
import proofs.«160617_j32323923870320_2_alg».proof.Proof.Gen.KernelIdeal.Frame
import proofs.«160617_j32323923870320_2_alg».proof.Proof.RegionScores
import proofs.«160617_j32323923870320_2_alg».proof.Proof.EntryArrays
import Idealize.ShloMosaic.Lib.Pipeline.Value
import Idealize.ShloMosaic.Lib.StableHlo.Run

noncomputable section

open scoped BigOperators

namespace Cert.KernelIdeal.Result

open Cert.KernelIdeal Cert.KernelIdeal.Gen Cert.KernelIdeal.Region Cert.KernelIdeal.Entry Cert.EdgeScore
open Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- The host's last lines applied to an output row `S` and a bias `b`: flatten, keep the first 1000000 entries, add
    the bias. -/
def tail (S : FVec Ideal S1x1007616 .f32) (b : FVec Ideal S1 .f32) : FVec Ideal S1000000 .f32 :=
  addf (F := Ideal) (φ := .f32) (extractStridedSlice S1000000 ![0] (shapeCast S1007616 S shapeCasts_S1x1007616_S1007616) slices_S1007616_S1000000_0)
    (broadcastInDim S1000000 ![] bcast_S_S1000000 (shapeCast S_ b shapeCasts_S1_S_))

/-- At entry `e`: the row's entry `e` plus the bias. -/
theorem tail_apply (S : FVec Ideal S1x1007616 .f32) (b : FVec Ideal S1 .f32) (e : Fin 1000000) :
    tail S b (ix1 e) = S (ix2 (0 : Fin 1) (⟨e.val, by omega⟩ : Fin 1007616)) + b (ix1 (0 : Fin 1)) := by
  unfold tail
  show extractStridedSlice S1000000 ![0] (shapeCast S1007616 S shapeCasts_S1x1007616_S1007616) slices_S1007616_S1000000_0 (ix1 e)
    + broadcastInDim S1000000 ![] bcast_S_S1000000 (shapeCast S_ b shapeCasts_S1_S_) (ix1 e) = _
  rw [extractStridedSlice_apply _ _ slices_S1007616_S1000000_0 (ix1 e) (ix1 (⟨e.val, by omega⟩ : Fin 1007616)) (fun a => by
      match a with
      | ⟨0, _⟩ => show e.val = 0 + e.val; omega),
    shapeCast_apply S shapeCasts_S1x1007616_S1007616 (ix1 (⟨e.val, by omega⟩ : Fin 1007616))
      (ix2 (0 : Fin 1) (⟨e.val, by omega⟩ : Fin 1007616)) (by
        rw [Shape.rowMajor_val_two, Shape.rowMajor_val_one]; show 0 * 1007616 + e.val = e.val; omega),
    broadcastInDim_apply _ bcast_S_S1000000 _ (ix1 e) ix0 (fun a => a.elim0),
    shapeCast_apply b shapeCasts_S1_S_ ix0 (ix1 (0 : Fin 1)) (by rw [Shape.rowMajor_val_one]; rfl)]

/-- THE RESULT BUFFER after the host's last lines: they applied to the region's row of scores and the bias
    argument. -/
theorem result_eq (c : Dev nD) :
    Pipeline.afterTail₀ cfgs (dats m) 0 (V0 m) [hostOps1] c main_v33
      = tail (rowScores (V m c main_v14) (V m c main_v21) (V m c main_v23) (V m c main_v25) (V m c main_arg4) (V m c main_v27))
          (m ((c : Thread nD τ).loc main_arg6)) := by
  have h28 : Pipeline.withArrays (cfgs 0).spec c (V0 m c) (fun w => (dats m 0 c).arrAt w (cfgs 0).N) (Proc.devRef .tc main_v28)
      = rowScores (V m c main_v14) (V m c main_v21) (V m c main_v23) (V m c main_v25) (V m c main_arg4) (V m c main_v27) :=
    (Pipeline.withArrays_arr spec0 launch0.win.arr_inj c _ _ 6).trans (final m c)
  have h6 : Pipeline.withArrays (cfgs 0).spec c (V0 m c) (fun w => (dats m 0 c).arrAt w (cfgs 0).N) (Proc.devRef .tc main_arg6)
      = m ((c : Thread nD τ).loc main_arg6) :=
    (Pipeline.withArrays_of_ne _ c (V0 m c) _ main_arg6 (by exact (by decide : ∀ w, Pipeline.arrRef spec0 w ≠ main_arg6))).trans
      (V_main_arg6 m c)
  unfold Pipeline.afterTail₀
  show StableHlo.after hostOps1 _ (Proc.devRef .tc main_v33) = _
  after_results
  rw [h28, h6]
  rfl

/-- Entry `e` of the result buffer is the edge decoder's score of edge `e`. -/
theorem result_apply (c : Dev nD) (e : Fin 1000000) :
    tail (rowScores (V m c main_v14) (V m c main_v21) (V m c main_v23) (V m c main_v25) (V m c main_arg4) (V m c main_v27))
        (m ((c : Thread nD τ).loc main_arg6)) (ix1 e)
      = edgeScores (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) e := by
  rw [tail_apply]
  unfold rowScores edgeScores
  have g0 : (fun k : Fin 128 => V m c main_v14 (ix2 (⟨e.val, by omega⟩ : Fin 1007616) k))
      = fun k => m ((c : Thread nD τ).loc main_arg0) (ix2 (userRow (m ((c : Thread nD τ).loc main_arg2)) e) k) :=
    funext fun k => users_entry m c e k
  have g1 : (fun k : Fin 128 => V m c main_v21 (ix2 (⟨e.val, by omega⟩ : Fin 1007616) k))
      = fun k => m ((c : Thread nD τ).loc main_arg1) (ix2 (recipeRow (m ((c : Thread nD τ).loc main_arg2)) e) k) :=
    funext fun k => recipes_entry m c e k
  have g2 : (fun k j : Fin 128 => V m c main_v23 (ix2 k j)) = fun k j => m ((c : Thread nD τ).loc main_arg3) (ix2 (upper k) j) :=
    funext fun k => funext fun j => upper_entry m c k j
  have g3 : (fun k j : Fin 128 => V m c main_v25 (ix2 k j)) = fun k j => m ((c : Thread nD τ).loc main_arg3) (ix2 (lower k) j) :=
    funext fun k => funext fun j => lower_entry m c k j
  have g4 : (fun j : Fin 128 => V m c main_arg4 (ix1 j)) = fun j => m ((c : Thread nD τ).loc main_arg4) (ix1 j) :=
    funext fun j => bias_entry m c j
  have g5 : (fun j : Fin 128 => V m c main_v27 (ix2 (0 : Fin 1) j)) = fun j => m ((c : Thread nD τ).loc main_arg5) (ix2 j (0 : Fin 1)) :=
    funext fun j => w2row_entry m c j
  exact congrArg (· + m ((c : Thread nD τ).loc main_arg6) (ix1 (0 : Fin 1)))
    (show pairScore (fun k : Fin 128 => V m c main_v14 (ix2 (⟨e.val, by omega⟩ : Fin 1007616) k))
        (fun k : Fin 128 => V m c main_v21 (ix2 (⟨e.val, by omega⟩ : Fin 1007616) k))
        (fun k j : Fin 128 => V m c main_v23 (ix2 k j)) (fun k j : Fin 128 => V m c main_v25 (ix2 k j))
        (fun j : Fin 128 => V m c main_arg4 (ix1 j)) (fun j : Fin 128 => V m c main_v27 (ix2 (0 : Fin 1) j)) = _ by
      rw [g0, g1, g2, g3, g4, g5])

/-- THE KERNEL PROGRAM'S RUN: every weakly fair execution terminates, the result buffer holding the host's last lines
    of the region's row of scores, the arguments unchanged. -/
theorem run : θ_run defs (onTc (τ := τ) (main (F := Ideal))) ⟨m, fun _ => 0, ρ⟩ fun r => ∀ c : Dev nD,
      r.2.mem ((c.tc : Thread nD τ).loc main_v33)
        = tail (rowScores (V m c main_v14) (V m c main_v21) (V m c main_v23) (V m c main_v25) (V m c main_arg4) (V m c main_v27))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v33 (Pipeline.mem_restRefs_of main_v33 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Result

end
-- ==== Proof.ReferenceScores.lean ====
/-
  The reference's result is the edge decoder's function.

  The reference gathers the two embedding rows of every edge, lays them side by side into a row of 256, multiplies by
  the whole first weight matrix, adds the bias, rectifies, multiplies by the output weights and adds the output bias.
  Read at edge `e` through the generated stage lemmas: the product of the concatenated row with `W1` splits at
  column 128 into the user row against the upper half plus the recipe row against the lower half (`sum_halves`), and
  each hidden unit times its output weight is the weight times the unit (commutativity of the product on the extended
  reals). Nothing here needs the entries to be finite.
-/
import proofs.«160617_j32323923870320_2_alg».proof.Proof.Gen.ReferenceIdeal.Read
import proofs.«160617_j32323923870320_2_alg».proof.Proof.EdgeScore
import proofs.«160617_j32323923870320_2_alg».proof.Proof.LibGatherRows
import Idealize.ShloMosaic.Lib.Pipeline.Value
import Idealize.ShloMosaic.Lib.ValueIdx

noncomputable section

open scoped BigOperators

namespace Cert.ReferenceIdeal.Scores

open Cert.ReferenceIdeal Cert.ReferenceIdeal.Gen Cert.ReferenceIdeal.Read Cert.EdgeScore
open Idealize.ShloMosaic Idealize.ShloMosaic.ValueIdx

variable (x0 : (⟨S100000x128, .f32⟩ : BufTy).Contents (Elt Ideal)) (x1 : (⟨S50000x128, .f32⟩ : BufTy).Contents (Elt Ideal))
  (x2 : (⟨S2x1000000, .i32⟩ : BufTy).Contents (Elt Ideal)) (x3 : (⟨S256x128, .f32⟩ : BufTy).Contents (Elt Ideal))
  (x4 : (⟨S128, .f32⟩ : BufTy).Contents (Elt Ideal)) (x5 : (⟨S128x1, .f32⟩ : BufTy).Contents (Elt Ideal))
  (x6 : (⟨S1, .f32⟩ : BufTy).Contents (Elt Ideal))

/-- The user index word of edge `e`. -/
theorem word0 (e : Fin 1000000) : val_main_v1 (F := Ideal) x2 (ix1 e) = x2 (ix2 (0 : Fin 2) e) := by
  rw [val_main_v1_apply, val_main_v0_apply]
  exact congrArg x2 (funext fun a => Fin.ext (by
    match a with
    | ⟨0, _⟩ => rfl
    | ⟨1, _⟩ => show e.val % 1000000 = e.val; exact Nat.mod_eq_of_lt e.isLt))

/-- The recipe index word of edge `e`. -/
theorem word1 (e : Fin 1000000) : val_main_v3 (F := Ideal) x2 (ix1 e) = x2 (ix2 (1 : Fin 2) e) := by
  rw [val_main_v3_apply, val_main_v2_apply]
  exact congrArg x2 (funext fun a => Fin.ext (by
    match a with
    | ⟨0, _⟩ => rfl
    | ⟨1, _⟩ => show e.val % 1000000 = e.val; exact Nat.mod_eq_of_lt e.isLt))

/-- The user start index of edge `e`: the word, wrapped by the table's height if negative. -/
theorem start0 (e : Fin 1000000) : val_main_v9 (F := Ideal) x2 (ix2 e (0 : Fin 1))
    = Scalar.select (IntOp.cmpi .slt (x2 (ix2 (0 : Fin 2) e)) 0#32) (IntOp.addi (x2 (ix2 (0 : Fin 2) e)) 100000#32)
        (x2 (ix2 (0 : Fin 2) e)) := by
  rw [val_main_v9_apply]
  have hi : idx_main_v9 (ix2 e (0 : Fin 1)) = ix1 e := funext fun a => Fin.ext (by
    match a with
    | ⟨0, _⟩ => rfl)
  rw [hi, val_main_v8_apply, val_main_v5_apply, val_main_v7_apply, val_main_v4_apply, val_main_v6_apply,
    val_main_c_apply, val_main_c_0_apply, word0]

/-- The recipe start index of edge `e`. -/
theorem start1 (e : Fin 1000000) : val_main_v16 (F := Ideal) x2 (ix2 e (0 : Fin 1))
    = Scalar.select (IntOp.cmpi .slt (x2 (ix2 (1 : Fin 2) e)) 0#32) (IntOp.addi (x2 (ix2 (1 : Fin 2) e)) 50000#32)
        (x2 (ix2 (1 : Fin 2) e)) := by
  rw [val_main_v16_apply]
  have hi : idx_main_v16 (ix2 e (0 : Fin 1)) = ix1 e := funext fun a => Fin.ext (by
    match a with
    | ⟨0, _⟩ => rfl)
  rw [hi, val_main_v15_apply, val_main_v12_apply, val_main_v14_apply, val_main_v11_apply, val_main_v13_apply,
    val_main_c_1_apply, val_main_c_2_apply, word1]

/-- The gathered user rows: row `e` is the user row of edge `e`. -/
theorem users (e : Fin 1000000) (k : Fin 128) :
    val_main_v10 (F := Ideal) x0 x2 (ix2 e k) = x0 (ix2 (userRow x2 e) k) := by
  unfold val_main_v10
  refine (gather_rows_apply (by decide) Facts₀.gather_S100000x128_S1000000x1_S1000000x128_1_0_n_n_0_1_1128_wf x0 _ e k).trans ?_
  refine congrArg (fun r : Fin 100000 => x0 (ix2 r k)) (Fin.ext ?_)
  show clampRow 100000 _ = tableRow 100000 _
  unfold tableRow
  rw [start0]

/-- The gathered recipe rows: row `e` is the recipe row of edge `e`. -/
theorem recipes (e : Fin 1000000) (k : Fin 128) :
    val_main_v17 (F := Ideal) x1 x2 (ix2 e k) = x1 (ix2 (recipeRow x2 e) k) := by
  unfold val_main_v17
  refine (gather_rows_apply (by decide) Facts₀.gather_S50000x128_S1000000x1_S1000000x128_1_0_n_n_0_1_1128_wf x1 _ e k).trans ?_
  refine congrArg (fun r : Fin 50000 => x1 (ix2 r k)) (Fin.ext ?_)
  show clampRow 50000 _ = tableRow 50000 _
  unfold tableRow
  rw [start1]

/-- The two gathered rows side by side: the first 128 columns are the user row … -/
theorem concat_upper (e : Fin 1000000) (k : Fin 128) :
    val_main_v18 (F := Ideal) x0 x1 x2 (ix2 e (upper k)) = val_main_v10 (F := Ideal) x0 x2 (ix2 e k) := by
  unfold val_main_v18
  exact concatenate_pair_apply_left (t := S1000000x256) (s₁ := S1000000x128) (s₂ := S1000000x128) (1 : Fin 2)
    (val_main_v10 (F := Ideal) x0 x2) (val_main_v17 (F := Ideal) x1 x2) concatenates_S1000000x128_S1000000x128_S1000000x256_d1
    (ix2 e (upper k)) rfl (ix2 e k) (fun b => by
      match b with
      | ⟨0, _⟩ => rfl
      | ⟨1, _⟩ => rfl)

/-- … and the last 128 the recipe row. -/
theorem concat_lower (e : Fin 1000000) (k : Fin 128) :
    val_main_v18 (F := Ideal) x0 x1 x2 (ix2 e (lower k)) = val_main_v17 (F := Ideal) x1 x2 (ix2 e k) := by
  unfold val_main_v18
  exact concatenate_pair_apply_right (t := S1000000x256) (s₁ := S1000000x128) (s₂ := S1000000x128) (1 : Fin 2)
    (val_main_v10 (F := Ideal) x0 x2) (val_main_v17 (F := Ideal) x1 x2) concatenates_S1000000x128_S1000000x128_S1000000x256_d1
    (ix2 e (lower k)) rfl rfl (ix2 e k) (fun b hb => by
      match b, hb with
      | ⟨0, _⟩, _ => rfl
      | ⟨1, _⟩, hb => exact absurd rfl hb) (by show k.val + 128 = 128 + k.val; omega)

/-- The first layer before the bias, at edge `e` and hidden unit `j`: the user row against `W1`'s upper half plus the
    recipe row against its lower half. -/
theorem preact (e : Fin 1000000) (j : Fin 128) : val_main_v19 (F := Ideal) x0 x1 x2 x3 (ix2 e j)
    = ∑ k : Fin 128, x0 (ix2 (userRow x2 e) k) * x3 (ix2 (upper k) j)
      + ∑ k : Fin 128, x1 (ix2 (recipeRow x2 e) k) * x3 (ix2 (lower k) j) := by
  rw [val_main_v19_apply]
  refine (sum_halves _).trans ?_
  refine congrArg₂ (· + ·) (Finset.sum_congr rfl fun k _ => ?_) (Finset.sum_congr rfl fun k _ => ?_)
  · show val_main_v18 (F := Ideal) x0 x1 x2 (lidx_main_v19 (ix2 e j) (upper k)) * x3 (ridx_main_v19 (ix2 e j) (upper k)) = _
    have hl : lidx_main_v19 (ix2 e j) (upper k) = ix2 e (upper k) := funext fun a => Fin.ext (by
      match a with
      | ⟨0, _⟩ => rfl
      | ⟨1, _⟩ => rfl)
    have hr : ridx_main_v19 (ix2 e j) (upper k) = ix2 (upper k) j := funext fun a => Fin.ext (by
      match a with
      | ⟨0, _⟩ => rfl
      | ⟨1, _⟩ => rfl)
    rw [hl, hr, concat_upper, users]
  · show val_main_v18 (F := Ideal) x0 x1 x2 (lidx_main_v19 (ix2 e j) (lower k)) * x3 (ridx_main_v19 (ix2 e j) (lower k)) = _
    have hl : lidx_main_v19 (ix2 e j) (lower k) = ix2 e (lower k) := funext fun a => Fin.ext (by
      match a with
      | ⟨0, _⟩ => rfl
      | ⟨1, _⟩ => rfl)
    have hr : ridx_main_v19 (ix2 e j) (lower k) = ix2 (lower k) j := funext fun a => Fin.ext (by
      match a with
      | ⟨0, _⟩ => rfl
      | ⟨1, _⟩ => rfl)
    rw [hl, hr, concat_lower, recipes]

/-- The hidden layer at edge `e`, unit `j`. -/
theorem hidden (e : Fin 1000000) (j : Fin 128) : val_main_v23 (F := Ideal) x0 x1 x2 x3 x4 (ix2 e j)
    = max ((∑ k : Fin 128, x0 (ix2 (userRow x2 e) k) * x3 (ix2 (upper k) j)
        + ∑ k : Fin 128, x1 (ix2 (recipeRow x2 e) k) * x3 (ix2 (lower k) j)) + x4 (ix1 j)) (Ideal.ofBits .f32 0x00000000#32) := by
  rw [val_main_v23_apply, val_main_v22_apply, val_main_call0_v0_apply, val_main_call0_cst_apply, val_main_v21_apply,
    val_main_v20_apply, preact]
  have hb : idx_main_v20 (idx_main_v21 (ix2 e j)) = ix1 j := funext fun a => Fin.ext (by
    match a with
    | ⟨0, _⟩ => rfl)
  rw [hb]
  rfl

/-- THE REFERENCE'S RESULT AT EDGE `e` is the edge decoder's score of `e`. -/
theorem result (e : Fin 1000000) :
    val_main_v28 (F := Ideal) x0 x1 x2 x3 x4 x5 x6 (ix1 e) = edgeScores x0 x1 x2 x3 x4 x5 x6 e := by
  rw [val_main_v28_apply]
  have h28 : idx_main_v28 (ix1 e) = ix2 e (0 : Fin 1) := funext fun a => Fin.ext (by
    match a with
    | ⟨0, _⟩ => show e.val / 1 = e.val; exact Nat.div_one _
    | ⟨1, _⟩ => rfl)
  rw [h28, val_main_v27_apply, val_main_v26_apply, val_main_v25_apply, val_main_v24_apply]
  have hb : idx_main_v25 (idx_main_v26 (ix2 e (0 : Fin 1))) = ix1 (0 : Fin 1) := funext fun a => Fin.ext (by
    match a with
    | ⟨0, _⟩ => rfl)
  rw [hb]
  unfold edgeScores pairScore
  show (∑ k : Fin 128, val_main_v23 (F := Ideal) x0 x1 x2 x3 x4 (lidx_main_v24 (ix2 e (0 : Fin 1)) k)
      * x5 (ridx_main_v24 (ix2 e (0 : Fin 1)) k)) + x6 (ix1 (0 : Fin 1)) = _
  refine congrArg (· + x6 (ix1 (0 : Fin 1))) (Finset.sum_congr rfl fun j _ => ?_)
  have hl : lidx_main_v24 (ix2 e (0 : Fin 1)) j = ix2 e j := funext fun a => Fin.ext (by
    match a with
    | ⟨0, _⟩ => rfl
    | ⟨1, _⟩ => rfl)
  have hr : ridx_main_v24 (ix2 e (0 : Fin 1)) j = ix2 j (0 : Fin 1) := funext fun a => Fin.ext (by
    match a with
    | ⟨0, _⟩ => rfl
    | ⟨1, _⟩ => rfl)
  rw [hl, hr, hidden, mul_comm]

/-- The reference's result, whole. -/
theorem result_fun : val_main_v28 (F := Ideal) x0 x1 x2 x3 x4 x5 x6
    = fun i => edgeScores x0 x1 x2 x3 x4 x5 x6 (⟨(i 0).val, (i 0).isLt⟩ : Fin 1000000) := by
  funext i
  obtain ⟨e, rfl⟩ : ∃ e : Fin 1000000, i = ix1 e := ⟨i 0, eq_ix1 i⟩
  exact result x0 x1 x2 x3 x4 x5 x6 e

end Cert.ReferenceIdeal.Scores

end
-- ==== Proof.lean ====
/-
  An edge decoder on the TensorCore against its jnp reference, equal on the extended reals.

  Both programs score each of 1000000 edges: the edge's user row and recipe row are looked up in two embedding tables
  (as `x[i]` looks a row up: a negative index wrapped by the table's height, the result clamped into the table), and
  a two-layer perceptron is applied to the two rows laid side by side,

      score e = Σ_j W2 j * max ((Σ_{k<256} z e k * W1 k j) + b1 j) 0 + b2,      z e = [user row | recipe row].

  The reference computes this as written. The kernel program pads the two index vectors to 123 blocks of 8192, gathers,
  and runs a grid of 123 points, each computing, for its block of rows,

      Σ_j w2 j * max ((Σ_{k<128} u k * Wu k j + Σ_{k<128} v k * Wv k j) + b1 j) 0

  with `Wu`, `Wv` the upper and lower halves of `W1` and `w2` the column `W2` transposed into a row; the host then drops
  the padded entries and adds `b2`. At the ideal values a change of float format is the identity and a matrix product
  into a zero accumulator is the plain sum, so the two sides differ by one law only: a sum over 256 indices is the sum
  over its first 128 plus the sum over its last 128 (and the product commutes). That law holds in any commutative
  monoid, hence on the extended reals with their infinities: the precondition (finite inputs) is never opened.

  The modules: `EdgeScore` states the result as one function of the seven arguments; `BlockScore` reads the kernel body's
  stored row at an entry; `RegionScores` takes the 123 blocks to the whole output row; `EntryArrays` reads the six arrays
  the region finds; `KernelScores` reads the host's last lines and states the kernel program's run; `ReferenceScores`
  reads the reference's stages down to the same function. The two word-level frames and the idealized kernel's are the
  generated ones; the reference's frame is its generated run with the result dropped; the idealization rewrote nothing,
  so its statement is `True`.
-/
import proofs.«160617_j32323923870320_2_alg».proof.Defs
import proofs.«160617_j32323923870320_2_alg».proof.Proof.Gen.Kernel
import proofs.«160617_j32323923870320_2_alg».proof.Proof.Gen.Kernel.Skeleton
import proofs.«160617_j32323923870320_2_alg».proof.Proof.Gen.Kernel.Launch
import proofs.«160617_j32323923870320_2_alg».proof.Proof.Gen.Kernel.Points
import proofs.«160617_j32323923870320_2_alg».proof.Proof.Gen.Kernel.Frame
import proofs.«160617_j32323923870320_2_alg».proof.Proof.Gen.KernelIdeal
import proofs.«160617_j32323923870320_2_alg».proof.Proof.Gen.KernelIdeal.Skeleton
import proofs.«160617_j32323923870320_2_alg».proof.Proof.Gen.KernelIdeal.Launch
import proofs.«160617_j32323923870320_2_alg».proof.Proof.Gen.KernelIdeal.Points
import proofs.«160617_j32323923870320_2_alg».proof.Proof.Gen.KernelIdeal.Frame
import proofs.«160617_j32323923870320_2_alg».proof.Proof.Gen.ReferenceIdeal
import proofs.«160617_j32323923870320_2_alg».proof.Proof.Gen.Pre_finite_inputs
import proofs.«160617_j32323923870320_2_alg».proof.Proof.Gen.ReferenceIdeal.Run
import proofs.«160617_j32323923870320_2_alg».proof.Proof.Gen.ReferenceIdeal.Read
import proofs.«160617_j32323923870320_2_alg».proof.Proof.KernelScores
import proofs.«160617_j32323923870320_2_alg».proof.Proof.ReferenceScores
import Idealize.ShloMosaic.Adequacy
import Idealize.ShloMosaic.Init

noncomputable section

namespace Cert.Proof

open Idealize.ShloMosaic Idealize.ShloMosaic.ValueIdx Idealize.SL.Sem Cert.EdgeScore

/-- The word-level kernel program runs and keeps its arguments. -/
theorem frame_kernel : Cert.frame_Kernel := fun m ρ _ => Cert.Kernel.Gen.frame m ρ

/-- So does the idealized kernel program. -/
theorem frame_ideal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with every edge's score, the edge decoder's
    function of the seven argument arrays, in their result buffers. -/
theorem algebraic : Cert.algebraic_KernelIdeal_ReferenceIdeal := by
  intro m ρ m' ρ' _ hagree
  refine ⟨fun c => (fun i : Cert.KernelIdeal.S1000000.Idx =>
      edgeScores (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (⟨(i 0).val, (i 0).isLt⟩ : Fin 1000000)), ?_, ?_⟩
  · refine (θ_run Cert.KernelIdeal.defs _ _).mono (fun _ h c => ⟨(h c).1.trans ?_, (h c).2⟩)
      (Cert.KernelIdeal.Result.run m ρ)
    funext i
    obtain ⟨e, rfl⟩ : ∃ e : Fin 1000000, i = ix1 e := ⟨i 0, eq_ix1 i⟩
    exact Cert.KernelIdeal.Result.result_apply m c e
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v28_eq, Cert.ReferenceIdeal.Scores.result_fun]
    obtain ⟨a0, a1, a2, a3, a4, a5, a6⟩ := hagree c
    rw [a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
